-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S1024x1024 : Shape := ⟨2, ![1024, 1024]⟩
abbrev S1024 : Shape := ⟨1, ![1024]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S128x1024 .f32) (main_arg1 : FVec F S1024x1024 .f32) (main_arg2 : FVec F S1024 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S128x1024 : Shape := ⟨2, ![128, 1024]⟩
abbrev S1024x1024 : Shape := ⟨2, ![1024, 1024]⟩
abbrev S1024 : Shape := ⟨1, ![1024]⟩
abbrev S1x1024 : Shape := ⟨2, ![1, 1024]⟩
abbrev S128x256 : Shape := ⟨2, ![128, 256]⟩
abbrev S256x128 : Shape := ⟨2, ![256, 128]⟩
abbrev S1x128 : Shape := ⟨2, ![1, 128]⟩
abbrev S128x128 : Shape := ⟨2, ![128, 128]⟩
abbrev S128x256x1 : Shape := ⟨3, ![128, 256, 1]⟩
abbrev S1x256x128 : Shape := ⟨3, ![1, 256, 128]⟩
abbrev S128x256x128 : Shape := ⟨3, ![128, 256, 128]⟩

abbrev nBuf : Space → Nat
  | .hbm => 5
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S1024x1024, .f32⟩
  | .hbm, ⟨2, _⟩ => ⟨S1024, .f32⟩
  | .hbm, ⟨3, _⟩ => ⟨S1x1024, .f32⟩
  | .hbm, ⟨4, _⟩ => ⟨S128x1024, .f32⟩
  | .local _ .vmem, ⟨0, _⟩ => ⟨S128x256, .f32⟩
  | .local _ .vmem, ⟨1, _⟩ => ⟨S128x256, .f32⟩
  | .local _ .vmem, ⟨2, _⟩ => ⟨S256x128, .f32⟩
  | .local _ .vmem, ⟨3, _⟩ => ⟨S256x128, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S1024_S1x1024 : S1024.ShapeCasts S1x1024
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x256_S128x256_0_0 : ∀ a, (![0, 0] : Fin 2 → Nat) a + S128x256.size a ≤ S128x256.size a
  h_S128x256 : 0 < S128x256.numel
  shapeCasts_S128x256_S128x256x1 : S128x256.ShapeCasts S128x256x1
  inb_S256x128_S256x128_0_0 : ∀ a, (![0, 0] : Fin 2 → Nat) a + S256x128.size a ≤ S256x128.size a
  h_S256x128 : 0 < S256x128.numel
  shapeCasts_S256x128_S1x256x128 : S256x128.ShapeCasts S1x256x128
  broadcasts_S128x256x1_S128x256x128 : S128x256x1.Broadcasts S128x256x128
  broadcasts_S1x256x128_S128x256x128 : S1x256x128.Broadcasts S128x256x128
  reduces_S128x256x128_S128x128 : S128x256x128.Reduces [1] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S128x1024.size a
  hwx0_0 : ∀ i : grid0.Coords, EltTy.bits .f32 = 32 ∨ (Rect.block (s := S128x1024) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S1024x1024.size a
  hwx0_1 : ∀ i : grid0.Coords, EltTy.bits .f32 = 32 ∨ (Rect.block (s := S1024x1024) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x1024.size a
  hwx0_2 : ∀ i : grid0.Coords, EltTy.bits .f32 = 32 ∨ (Rect.block (s := S1x1024) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x1024.size a
  hwx0_3 : ∀ i : grid0.Coords, EltTy.bits .f32 = 32 ∨ (Rect.block (s := S128x1024) S128x128.size (cc0_transform_3 i) (hinb0_3 i)).WholeWords (EltTy.packing .f32)

variable [Facts₀]

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S128x1024 : Shape := ⟨2, ![128, 1024]⟩
abbrev S1024x1024 : Shape := ⟨2, ![1024, 1024]⟩
abbrev S1024 : Shape := ⟨1, ![1024]⟩
abbrev S128x1024x1 : Shape := ⟨3, ![128, 1024, 1]⟩
abbrev S1x1024x1024 : Shape := ⟨3, ![1, 1024, 1024]⟩
abbrev S128x1024x1024 : Shape := ⟨3, ![128, 1024, 1024]⟩
abbrev S_ : Shape := ⟨0, ![]⟩
abbrev S1x1024 : Shape := ⟨2, ![1, 1024]⟩

abbrev nBuf : Space → Nat
  | .hbm => 13
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024x1024, .f32⟩
  | .hbm, ⟨2, _⟩ => ⟨S1024, .f32⟩
  | .hbm, ⟨3, _⟩ => ⟨S128x1024x1, .f32⟩
  | .hbm, ⟨4, _⟩ => ⟨S1x1024x1024, .f32⟩
  | .hbm, ⟨5, _⟩ => ⟨S128x1024x1024, .f32⟩
  | .hbm, ⟨6, _⟩ => ⟨S128x1024x1024, .f32⟩
  | .hbm, ⟨7, _⟩ => ⟨S128x1024x1024, .f32⟩
  | .hbm, ⟨8, _⟩ => ⟨S_, .f32⟩
  | .hbm, ⟨9, _⟩ => ⟨S128x1024, .f32⟩
  | .hbm, ⟨10, _⟩ => ⟨S1x1024, .f32⟩
  | .hbm, ⟨11, _⟩ => ⟨S128x1024, .f32⟩
  | .hbm, ⟨12, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S128x1024_S128x1024x1_0_1 : S128x1024.BroadcastsInDim S128x1024x1 (![0, 1] : Fin 2 → Fin S128x1024x1.rank)
  bcast_S1024x1024_S1x1024x1024_1_2 : S1024x1024.BroadcastsInDim S1x1024x1024 (![1, 2] : Fin 2 → Fin S1x1024x1024.rank)
  bcast_S128x1024x1_S128x1024x1024_0_1_2 : S128x1024x1.BroadcastsInDim S128x1024x1024 (![0, 1, 2] : Fin 3 → Fin S128x1024x1024.rank)
  bcast_S1x1024x1024_S128x1024x1024_0_1_2 : S1x1024x1024.BroadcastsInDim S128x1024x1024 (![0, 1, 2] : Fin 3 → Fin S128x1024x1024.rank)
  reducesTo_S128x1024x1024_S128x1024_d1 : S128x1024x1024.ReducesTo [1] S128x1024
  h_S_ : 0 < S_.numel
  bcast_S1024_S1x1024_1 : S1024.BroadcastsInDim S1x1024 (![1] : Fin 1 → Fin S1x1024.rank)
  bcast_S1x1024_S128x1024_0_1 : S1x1024.BroadcastsInDim S128x1024 (![0, 1] : Fin 2 → Fin S128x1024.rank)

variable [Facts₀]

class Facts : Prop extends Facts₀ where

variable [Facts]
-- ==== Proof.MaxPlus.lean ====
/-
  The mathematics of a max-plus ("tropical") dense layer, with no program in sight.

  For an input `x : [128, 1024]`, weights `w : [1024, 1024]` and a bias `β : [1024]`, entry `(p, q)` of the layer is

      out (p, q) = max_g (x (p, g) - w (g, q)) + β q,        g ranging over the 1024 inner indices,

  the maximum being a fold of `max` seeded with the value of the word of minus infinity. `layer` is that function.

  The only law used to join two ways of computing it is about the fold: taking the maximum of the first `(i + 1) · K`
  terms is taking the larger of the maximum of the first `i · K` terms and the (seeded) maximum of block `i`. It holds
  in every linear order, whatever the seed: `max` is associative, commutative and idempotent, so the seed met again
  in each block is absorbed. Nothing here needs an entry to be finite.
-/
import Idealize.ShloMosaic.PureOps.Ideal
import Idealize.ShloMosaic.Lib.ValueIdx
import Mathlib.Data.Finset.Fold

noncomputable section

namespace Cert.MaxPlus

open Idealize.ShloMosaic Idealize.ShloMosaic.ValueIdx

/-! ## A running maximum and its blocks -/

section Fold

variable {α : Type} [LinearOrder α]

/-- The maximum, seeded with `b`, of the terms of a finite family whose position is below `n`. -/
def maxUpTo {N : ℕ} (b : α) (f : Fin N → α) (n : ℕ) : α :=
  (Finset.univ.filter fun g : Fin N => g.val < n).fold max b f

/-- Its universal property: it is below `c` exactly when the seed and every term in range are. -/
theorem maxUpTo_le_iff {N : ℕ} (b : α) (f : Fin N → α) (n : ℕ) (c : α) :
    maxUpTo b f n ≤ c ↔ b ≤ c ∧ ∀ g : Fin N, g.val < n → f g ≤ c := by
  unfold maxUpTo
  rw [Finset.fold_max_le]
  simp only [Finset.mem_filter, Finset.mem_univ, true_and]

/-- No term yet: the seed. -/
theorem maxUpTo_zero {N : ℕ} (b : α) (f : Fin N → α) : maxUpTo b f 0 = b := by
  unfold maxUpTo
  rw [Finset.filter_false_of_mem (fun g _ => Nat.not_lt_zero _), Finset.fold_empty]

/-- Every term: the maximum over the whole family. -/
theorem maxUpTo_all {N : ℕ} (b : α) (f : Fin N → α) : maxUpTo b f N = Finset.univ.fold max b f := by
  unfold maxUpTo
  rw [Finset.filter_true_of_mem (fun g _ => g.isLt)]

/-- Position `k` of block `i`, blocks of length `K`, in a family of `N` terms that holds `i + 1` blocks. -/
def inBlock {N K : ℕ} (i : ℕ) (h : (i + 1) * K ≤ N) (k : Fin K) : Fin N :=
  ⟨i * K + k.val, lt_of_lt_of_le (by rw [Nat.add_mul, Nat.one_mul]; exact Nat.add_lt_add_left k.isLt _) h⟩

/-- ONE MORE BLOCK. The maximum of the first `(i + 1) · K` terms is the larger of the maximum of the first `i · K`
    terms and the seeded maximum of block `i`: a bound holds of the left side iff it holds of the seed and of every
    term of either range, and a position below `(i + 1) · K` is below `i · K` or sits in block `i`. -/
theorem maxUpTo_block {N K : ℕ} (b : α) (f : Fin N → α) (i : ℕ) (h : (i + 1) * K ≤ N) :
    max (maxUpTo b f (i * K)) (Finset.univ.fold max b fun k : Fin K => f (inBlock i h k)) = maxUpTo b f ((i + 1) * K) := by
  have hK : (i + 1) * K = i * K + K := by rw [Nat.add_mul, Nat.one_mul]
  refine eq_of_forall_ge_iff fun c => ?_
  rw [max_le_iff, maxUpTo_le_iff, maxUpTo_le_iff, Finset.fold_max_le]
  constructor
  · rintro ⟨⟨hb, h1⟩, -, h2⟩
    refine ⟨hb, fun g hg => ?_⟩
    by_cases hlt : g.val < i * K
    · exact h1 g hlt
    · have hk : g.val - i * K < K := by omega
      have e : inBlock i h ⟨g.val - i * K, hk⟩ = g := Fin.ext (by show i * K + (g.val - i * K) = g.val; omega)
      have := h2 ⟨g.val - i * K, hk⟩ (Finset.mem_univ _)
      rwa [e] at this
  · rintro ⟨hb, h1⟩
    refine ⟨⟨hb, fun g hg => h1 g (by omega)⟩, hb, fun k _ => h1 _ ?_⟩
    show i * K + k.val < (i + 1) * K
    have := k.isLt
    omega

end Fold

/-! ## The layer -/

/-- The seed of every maximum below: the value of the single-precision word of minus infinity. -/
abbrev seed : EReal := FloatOps.ofBits (F := Ideal) .f32 0xFF800000#32

/-- The family maximised at row `p` of the input and column `q` of the weights: `g ↦ x (p, g) - w (g, q)`. -/
def term (x : (⟨2, ![128, 1024]⟩ : Shape).Idx → EReal) (w : (⟨2, ![1024, 1024]⟩ : Shape).Idx → EReal)
    (p : Fin 128) (q : Fin 1024) : Fin 1024 → EReal :=
  fun g => x (ix2 p g) - w (ix2 g q)

/-- THE LAYER: entry `(p, q)` is the seeded maximum over `g` of `x (p, g) - w (g, q)`, plus `β q`. -/
def layer (x : (⟨2, ![128, 1024]⟩ : Shape).Idx → EReal) (w : (⟨2, ![1024, 1024]⟩ : Shape).Idx → EReal)
    (β : (⟨1, ![1024]⟩ : Shape).Idx → EReal) : (⟨2, ![128, 1024]⟩ : Shape).Idx → EReal :=
  fun j => Finset.univ.fold max seed (term x w (j 0) (j 1)) + β (ix1 (j 1))

theorem layer_apply (x : (⟨2, ![128, 1024]⟩ : Shape).Idx → EReal) (w : (⟨2, ![1024, 1024]⟩ : Shape).Idx → EReal)
    (β : (⟨1, ![1024]⟩ : Shape).Idx → EReal) (p : Fin 128) (q : Fin 1024) :
    layer x w β (ix2 p q) = Finset.univ.fold max seed (term x w p q) + β (ix1 q) := rfl

end Cert.MaxPlus

end
-- ==== Proof.LibRank3.lean ====
/-
  Three layout operations of rank 3 read at coordinates, generic in the extents: what a "keepdims" difference
  `x[:, :, None] - w[None, :, :]` is made of.

    * an `[a, b]` array given a trailing unit axis, `[a, b, 1]`, keeps its entries: `(i, j, 0) ↦ (i, j)`;
    * an `[a, b, 1]` array broadcast along its last axis to `[a, b, c]` forgets the last coordinate;
    * a `[1, b, c]` array broadcast along its first axis to `[a, b, c]` forgets the first coordinate.

  Each is the general index lemma of the operation with both indices written by coordinates; an extent that happens
  to be 1 is its own unit axis, and the coordinate there is 0 either way.
-/
import Idealize.ShloMosaic.Lib.Pipeline.Value
import Idealize.ShloMosaic.Lib.ValueIdx

noncomputable section

namespace Cert.LibRank3

open Idealize.ShloMosaic Idealize.ShloMosaic.ValueIdx

variable {α : Type}

/-- An `[a, b]` array cast to `[a, b, 1]` reads, at `(i, j, u)`, the operand at `(i, j)`, whatever the unit coordinate `u`:
    the two indices have the same row-major position. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

end Cert.LibRank3

end
-- ==== Proof.KernelPayload.lean ====
/-
  The arithmetic of the kernel's body, read entry by entry over the extended reals.

  At a grid point the body holds a `[128, 256]` block `a` of the input, a `[256, 128]` block `b` of the weights and the
  `[128, 128]` accumulator `acc`, and stores back

      acc' (p, q) = max (acc (p, q)) (max_k (a (p, k) - b (k, q))),        k over the block's 256 inner positions,

  the inner maximum seeded with minus infinity: the difference is formed on a `[128, 256, 128]` tensor whose entry
  `(p, k, q)` is `a (p, k) - b (k, q)` (`a` given a trailing unit axis and repeated along `q`, `b` a leading one and
  repeated along `p`), and the middle axis is folded away. At the first point of a column the accumulator is first
  filled with the seed; at the last the result written out is `acc' (p, q) + β (0, q)`, the bias row repeated down the
  rows.
-/
import proofs.«139357_j11802570129553_1_alg».proof.Proof.Gen.KernelIdeal.Skeleton
import proofs.«139357_j11802570129553_1_alg».proof.Proof.MaxPlus
import proofs.«139357_j11802570129553_1_alg».proof.Proof.LibRank3
import Idealize.ShloMosaic.PureOps.Ideal.Laws
import Idealize.ShloMosaic.Lib.ValueLayout
import Idealize.ShloMosaic.Lib.Pipeline.Value

noncomputable section

namespace Cert.KernelIdeal.Payload

open Cert.KernelIdeal Cert.KernelIdeal.Gen
open Idealize.ShloMosaic Idealize.ShloMosaic.ValueIdx Cert.MaxPlus Cert.LibRank3

/-- Entry `(p, k, q)` of the difference tensor is `a (p, k) - b (k, q)`. -/
theorem diff_apply (a : FVec Ideal S128x256 .f32) (b : FVec Ideal S256x128 .f32) (p : Fin 128) (k : Fin 256) (q : Fin 128) :
    subf (broadcastTo S128x256x128 (shapeCast S128x256x1 a Facts₀.shapeCasts_S128x256_S128x256x1) Facts₀.broadcasts_S128x256x1_S128x256x128)
        (broadcastTo S128x256x128 (shapeCast S1x256x128 b Facts₀.shapeCasts_S256x128_S1x256x128) Facts₀.broadcasts_S1x256x128_S128x256x128)
        (ix3 p k q)
      = a (ix2 p k) - b (ix2 k q) := by
  refine (subf_apply _ _ _).trans ?_
  rw [broadcastTo_ab1_abc_apply, broadcastTo_1bc_abc_apply, shapeCast_ab_ab1_apply, shapeCast_ab_1ab_apply]

/-- Over entry `(p, q)` of the result, the index of the folded axis' position `k` is `(p, k, q)`. -/
theorem lift_eq (p q : Fin 128) (k : Fin 256) :
    (Facts₀.reduces_S128x256x128_S128x128 : S128x256x128.Reduces [1] S128x128).lift (ix2 p q) k = ix3 p k q := by
  funext c
  match c with
  | ⟨0, _⟩ => rfl
  | ⟨1, _⟩ => rfl
  | ⟨2, _⟩ => rfl

/-- Folding the middle axis away with `max`: entry `(p, q)` is the seeded maximum over `k` of the entries `(p, k, q)`. -/
theorem foldMiddle_apply (d : FVec Ideal S128x256x128 .f32) (p q : Fin 128) :
    multiReduction (F := Ideal) .maximumf [1] S128x128 d 0xFF800000#32 Facts₀.reduces_S128x256x128_S128x128 (.inl rfl) rfl (ix2 p q)
      = Finset.univ.fold max seed fun k : Fin 256 => d (ix3 p k q) :=
  (Ideal.multiReduction_maximumf_single d 0xFF800000#32 Facts₀.reduces_S128x256x128_S128x128 (.inl rfl) rfl (ix2 p q)).trans
    (Finset.fold_congr fun k _ => congrArg d (lift_eq p q k))

/-- The accumulator's first filling is the seed everywhere. -/
theorem pay1_apply (p q : Fin 128) : k0_pay1 (F := Ideal) (ix2 p q) = seed := by
  unfold k0_pay1
  rw [shapeCast_self]
  rfl

/-- ONE POINT'S UPDATE of the accumulator: the larger of what it held and the block's seeded maximum of differences. -/
theorem pay2_apply (a : FVec Ideal S128x256 .f32) (b : FVec Ideal S256x128 .f32) (acc : FVec Ideal S128x128 .f32) (p q : Fin 128) :
    k0_pay2 (F := Ideal) a b acc (ix2 p q)
      = max (acc (ix2 p q)) (Finset.univ.fold max seed fun k : Fin 256 => a (ix2 p k) - b (ix2 k q)) := by
  unfold k0_pay2
  rw [shapeCast_self]
  refine (maximumf_apply _ _ _).trans (congrArg (max _) ?_)
  refine (foldMiddle_apply _ p q).trans ?_
  exact Finset.fold_congr fun k _ => diff_apply a b p k q

/-- THE RESULT written out at a column's last point: the accumulator plus the bias row. -/
theorem pay3_apply (acc : FVec Ideal S128x128 .f32) (β : FVec Ideal S1x128 .f32) (p q : Fin 128) :
    k0_pay3 (F := Ideal) acc β (ix2 p q) = acc (ix2 p q) + β (ix2 (0 : Fin 1) q) := by
  unfold k0_pay3
  rw [shapeCast_self]
  exact (addf_apply _ _ _).trans (congrArg (acc (ix2 p q) + ·) (broadcastTo_1b_ab_apply β Facts₀.broadcasts_S1x128_S128x128 p q))

end Cert.KernelIdeal.Payload

end
-- ==== Proof.KernelPieces.lean ====
/-
  What one run of the kernel's body leaves behind, as values, in each of its three control cases — for any float
  values, not only the extended reals.

  The body always updates the accumulator from the input block `a`, the weight block `b` and what the accumulator
  held (`k0_pay2`); what differs is what it held and whether a result is written:

    * first point of a column: the accumulator is first filled with the seed (`k0_pay1`), so the update is over that;
    * middle points: the update is over what the point before left;
    * last point of a column: likewise, and the result block is the updated accumulator plus the bias row (`k0_pay3`).

  Each statement reads the stores the generated run found back as one value: a single store covering the whole
  buffer is its payload, and a load of a buffer just stored whole is what was stored.
-/
import proofs.«139357_j11802570129553_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- MIDDLE POINTS: the accumulator ends at its update over what it held. -/
theorem sout_B (c : Dev nD) (i : grid0.Coords) (arg2 : Memref sig .tc .vmem S128x256 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : ¬cond0_0 i) (hc1 : ¬cond0_1 i)
    (x0 : Vec F S128x256 .f32) (x1 : Vec F S256x128 .f32) (x2 : Vec F S1x128 .f32) (xs0 : Vec F S128x128 .f32) :
    sout0_B_0 c i arg2 harg2 arg3 harg3 arg4 harg4 arg5 harg5 arg6 harg6 hc0 hc1 x0 x1 x2 xs0 = k0_pay2 x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero hz]
  simp only [View.readAt_eq_ld, harg2.read_unread, harg3.read_unread, harg6.read_unread,
    View.ld_unit_zero (S := S128x256) hz, View.ld_unit_zero (S := S256x128) hz, View.ld_unit_zero (S := S128x128) hz]

/-- FIRST POINT OF A COLUMN: the accumulator ends at its update over the seed block it was just filled with. -/
theorem sout_A (c : Dev nD) (i : grid0.Coords) (arg2 : Memref sig .tc .vmem S128x256 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : cond0_0 i) (hc1 : ¬cond0_1 i)
    (x0 : Vec F S128x256 .f32) (x1 : Vec F S256x128 .f32) (x2 : Vec F S1x128 .f32) :
    sout0_A_0 c i arg2 harg2 arg3 harg3 arg4 harg4 arg5 harg5 arg6 harg6 hc0 hc1 x0 x1 x2 = k0_pay2 x0 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S128x128) hz, View.readCov_unit_zero (S := S128x128) _ hz]
  simp only [View.readAt_eq_ld, harg2.read_unread, harg3.read_unread,
    View.ld_unit_zero (S := S128x256) hz, View.ld_unit_zero (S := S256x128) hz, View.ld_unit_zero (S := S128x128) hz]

/-- LAST POINT OF A COLUMN, the accumulator: its update over what it held, as at a middle point. -/
theorem sout_C (c : Dev nD) (i : grid0.Coords) (arg2 : Memref sig .tc .vmem S128x256 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : ¬cond0_0 i) (hc1 : cond0_1 i)
    (x0 : Vec F S128x256 .f32) (x1 : Vec F S256x128 .f32) (x2 : Vec F S1x128 .f32) (xs0 : Vec F S128x128 .f32) :
    sout0_C_0 c i arg2 harg2 arg3 harg3 arg4 harg4 arg5 harg5 arg6 harg6 hc0 hc1 x0 x1 x2 xs0 = k0_pay2 x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg6.read_unread,
    View.ld_unit_zero (S := S128x256) hz, View.ld_unit_zero (S := S256x128) hz, View.ld_unit_zero (S := S128x128) hz]

/-- LAST POINT OF A COLUMN, the result block: the updated accumulator plus the bias row. -/
theorem out_C (c : Dev nD) (i : grid0.Coords) (arg2 : Memref sig .tc .vmem S128x256 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : ¬cond0_0 i) (hc1 : cond0_1 i)
    (x0 : Vec F S128x256 .f32) (x1 : Vec F S256x128 .f32) (x2 : Vec F S1x128 .f32) (xs0 : Vec F S128x128 .f32) :
    out0_C_3 c i arg2 harg2 arg3 harg3 arg4 harg4 arg5 harg5 arg6 harg6 hc0 hc1 x0 x1 x2 xs0 = k0_pay3 (k0_pay2 x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread,
    View.readCov_unit_zero (S := S128x128) _ hz,
    View.ld_unit_zero (S := S128x256) hz, View.ld_unit_zero (S := S256x128) hz, View.ld_unit_zero (S := S128x128) hz,
    View.ld_unit_zero (S := S1x128) hz]

end Cert.KernelIdeal.Pieces

end
-- ==== Proof.KernelBlocks.lean ====
/-
  Which entries of the arguments each window's block holds at a grid point.

  The grid has 32 points `t = 4 · col + blk`: `col = t / 4` names one of eight column tiles of 128 output columns,
  `blk = t % 4` one of four inner blocks of 256. At point `t`

    * the input's block is rows `0 … 127`, inner positions `256 · blk + k`;
    * the weights' block is inner positions `256 · blk + k`, columns `128 · col + q`;
    * the bias' block is the one row, columns `128 · col + q`, of the bias viewed as a `[1, 1024]` array (the view is
      taken before the kernel is launched, and reads entry `(0, j)` at `j`);
    * the result's block is rows `0 … 127`, columns `128 · col + q`.

  A block's entry is the array's at block index × block extent + the position inside the block, axis by axis; the four
  index maps are decided once over the grid.
-/
import proofs.«139357_j11802570129553_1_alg».proof.Proof.Gen.KernelIdeal.Frame
import Idealize.ShloMosaic.Lib.Pipeline.Value
import Idealize.ShloMosaic.Lib.ValueLayout
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The four windows' block indices at every point of the grid. -/
theorem idx_facts : ∀ t : Fin cfg0.N,
    (win0_0.index t 0 = 0 ∧ win0_0.index t 1 = t.val % 4)
    ∧ (win0_1.index t 0 = t.val % 4 ∧ win0_1.index t 1 = t.val / 4)
    ∧ (win0_2.index t 0 = 0 ∧ win0_2.index t 1 = t.val / 4)
    ∧ (win0_3.index t 0 = 0 ∧ win0_3.index t 1 = t.val / 4) :=
  (by decide +kernel : ∀ t : Fin grid0.N,
    (win0_0.index t 0 = 0 ∧ win0_0.index t 1 = t.val % 4)
    ∧ (win0_1.index t 0 = t.val % 4 ∧ win0_1.index t 1 = t.val / 4)
    ∧ (win0_2.index t 0 = 0 ∧ win0_2.index t 1 = t.val / 4)
    ∧ (win0_3.index t 0 = 0 ∧ win0_3.index t 1 = t.val / 4))

/-- The input's block at point `t`, entry `(p, k)`: the input at `(p, g)` with `g = 256 · (t % 4) + k`. -/
theorem input_apply (c : Dev nD) (t : Fin cfg0.N) (p : Fin 128) (k : Fin 256) (g : Fin 1024)
    (hg : g.val = t.val % 4 * 256 + k.val) :
    (iblk m c 0 t : Vec F S128x256 .f32) (ix2 p k) = m ((c : Thread nD τ).loc main_arg0) (ix2 p g) := by
  unfold iblk
  rw [View.read_apply]
  show V m c main_arg0 _ = _
  rw [V_main_arg0]
  congr 1
  funext a
  apply Fin.ext
  match a with
  | ⟨0, _⟩ => show win0_0.index t 0 * 128 + 1 * p.val = p.val; rw [(idx_facts t).1.1]; omega
  | ⟨1, _⟩ => show win0_0.index t 1 * 256 + 1 * k.val = g.val; rw [(idx_facts t).1.2, hg]; omega

/-- The weights' block at point `t`, entry `(k, q)`: the weights at `(g, j)` with `g = 256 · (t % 4) + k`, `j = 128 · (t / 4) + q`. -/
theorem weights_apply (c : Dev nD) (t : Fin cfg0.N) (k : Fin 256) (q : Fin 128) (g j : Fin 1024)
    (hg : g.val = t.val % 4 * 256 + k.val) (hj : j.val = t.val / 4 * 128 + q.val) :
    (iblk m c 1 t : Vec F S256x128 .f32) (ix2 k q) = m ((c : Thread nD τ).loc main_arg1) (ix2 g j) := by
  unfold iblk
  rw [View.read_apply]
  show V m c main_arg1 _ = _
  rw [V_main_arg1]
  congr 1
  funext a
  apply Fin.ext
  match a with
  | ⟨0, _⟩ => show win0_1.index t 0 * 256 + 1 * k.val = g.val; rw [(idx_facts t).2.1.1, hg]; omega
  | ⟨1, _⟩ => show win0_1.index t 1 * 128 + 1 * q.val = j.val; rw [(idx_facts t).2.1.2, hj]; omega

/-- The `[1, 1024]` array the kernel is launched on is the bias given a leading unit axis. -/
theorem V_bias (c : Dev nD) :
    (V m c main_v0 : S1x1024.Idx → Elt F (.f32)) = shapeCast S1x1024 (m ((c : Thread nD τ).loc main_arg2)) Facts₀.shapeCasts_S1024_S1x1024 := by
  dsimp only [V, hostOps0]
  after_results
  rfl

/-- The bias' block at point `t`, entry `(0, q)`: the bias at `j = 128 · (t / 4) + q`. -/
theorem bias_apply (c : Dev nD) (t : Fin cfg0.N) (q : Fin 128) (j : Fin 1024) (hj : j.val = t.val / 4 * 128 + q.val) :
    (iblk m c 2 t : Vec F S1x128 .f32) (ix2 (0 : Fin 1) q) = m ((c : Thread nD τ).loc main_arg2) (ix1 j) := by
  unfold iblk
  rw [View.read_apply]
  show V m c main_v0 _ = _
  rw [V_bias]
  refine Eq.trans (congrArg _ ?_) (shapeCast_a_1a_apply (m ((c : Thread nD τ).loc main_arg2)) Facts₀.shapeCasts_S1024_S1x1024 (0 : Fin 1) j)
  funext a
  apply Fin.ext
  match a with
  | ⟨0, _⟩ => show win0_2.index t 0 * 1 + 1 * 0 = 0; rw [(idx_facts t).2.2.1.1]
  | ⟨1, _⟩ => show win0_2.index t 1 * 128 + 1 * q.val = j.val; rw [(idx_facts t).2.2.1.2, hj]; omega

end Cert.KernelIdeal.Blocks

end
-- ==== Proof.KernelValue.lean ====
/-
  The kernel computes the layer.

  Its 32 grid points `t = 4 · col + blk` visit, column tile by column tile, the four inner blocks of 256. Writing
  `f g = x (p, g) - w (g, j)` for the family maximised at row `p` and column `j = 128 · col + q`:

    * THE INVARIANT. After point `t` the accumulator's entry `(p, q)` is the seeded maximum of the first
      `256 · (blk + 1)` terms of `f`. At `blk = 0` it was just filled with the seed — the maximum of no term —, otherwise
      the point before left the maximum of the first `256 · blk` terms; in both cases the body takes the larger of that and
      the seeded maximum of block `blk`, which is the maximum of one more block (`maxUpTo_block`).
    * THE RESULT. At `blk = 3` that is the maximum of all 1024 terms, the body adds the bias' entry `j`, and the block
      written back is the layer's entries `(p, 128 · col + q)`.
    * THE COVER. Column `j` of the result array lies in the block written back at point `4 · (j / 128) + 3`, so the
      eight blocks written back fill the array and it ends holding the layer.
-/
import proofs.«139357_j11802570129553_1_alg».proof.Proof.Gen.KernelIdeal.Value
import proofs.«139357_j11802570129553_1_alg».proof.Proof.MaxPlus
import proofs.«139357_j11802570129553_1_alg».proof.Proof.KernelPayload
import proofs.«139357_j11802570129553_1_alg».proof.Proof.KernelPieces
import proofs.«139357_j11802570129553_1_alg».proof.Proof.KernelBlocks
import Idealize.ShloMosaic.Lib.Pipeline.Value
import Idealize.ShloMosaic.Lib.ValueIdx

noncomputable section

namespace Cert.KernelIdeal.LayerValue

open Cert.KernelIdeal Cert.KernelIdeal.Gen Idealize.ShloMosaic Idealize.ShloMosaic.TcCoe Idealize.SL.Sem
open Idealize.ShloMosaic.Pipeline (Dat)
open Idealize.ShloMosaic.ValueIdx Cert.MaxPlus
open Cert.KernelIdeal.Payload Cert.KernelIdeal.Pieces Cert.KernelIdeal.Blocks

variable (m : (ℓ : Loc nD τ sig) → Buf (Elt Ideal) ℓ) (ρ : Dev nD → PrngReg)

/-- The three arguments as launched: input, weights, bias. -/
abbrev X (c : Dev nD) : S128x1024.Idx → EReal := m ((c : Thread nD τ).loc main_arg0)
abbrev W (c : Dev nD) : S1024x1024.Idx → EReal := m ((c : Thread nD τ).loc main_arg1)
abbrev B (c : Dev nD) : S1024.Idx → EReal := m ((c : Thread nD τ).loc main_arg2)

/-- What the accumulator held when point `t` began (meaningful when `t` is not a column's first point). -/
abbrev prev (c : Dev nD) (t : Fin cfg0.N) : Vec Ideal S128x128 .f32 :=
  (outsAt0 m c (t.val - 1) (Nat.lt_of_le_of_lt (Nat.sub_le _ _) t.isLt)).2

/-- ONE POINT'S UPDATE, in the layer's terms: over an accumulator holding the maximum of the first `256 · blk` terms,
    the body leaves the maximum of the first `256 · (blk + 1)`. -/
theorem update_eq (c : Dev nD) (t : Fin cfg0.N) (acc : FVec Ideal S128x128 .f32) (p q : Fin 128) (j : Fin 1024)
    (hj : j.val = t.val / 4 * 128 + q.val)
    (hacc : acc (ix2 p q) = maxUpTo seed (term (X m c) (W m c) p j) (t.val % 4 * 256)) :
    k0_pay2 (F := Ideal) (iblk m c 0 t) (iblk m c 1 t) acc (ix2 p q)
      = maxUpTo seed (term (X m c) (W m c) p j) ((t.val % 4 + 1) * 256) := by
  have hb : (t.val % 4 + 1) * 256 ≤ 1024 := by omega
  refine (pay2_apply (iblk m c 0 t) (iblk m c 1 t) acc p q).trans ?_
  rw [hacc, ← maxUpTo_block seed (term (X m c) (W m c) p j) (t.val % 4) hb]
  refine congrArg (max _) (Finset.fold_congr fun k _ => ?_)
  exact congrArg₂ (· - ·) (input_apply m c t p k (inBlock (t.val % 4) hb k) rfl)
    (weights_apply m c t k q (inBlock (t.val % 4) hb k) j rfl hj)

/-- The accumulator after a column's first point: the update over the seed block. -/
theorem scratch_first (c : Dev nD) (t : Fin cfg0.N) (h0 : t.val % 4 = 0) :
    (outsAt0 m c t.val t.isLt).2 = k0_pay2 (F := Ideal) (iblk m c 0 t) (iblk m c 1 t) (k0_pay1 (F := Ideal)) := by
  have h1 : ¬t.val % 4 = 3 := by omega
  rw [outsAt0_A m c t h0 h1]
  exact sout_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- The accumulator after any other point: the update over what the point before left. -/
theorem scratch_next (c : Dev nD) (t : Fin cfg0.N) (h0 : ¬t.val % 4 = 0) :
    (outsAt0 m c t.val t.isLt).2 = k0_pay2 (F := Ideal) (iblk m c 0 t) (iblk m c 1 t) (prev m c t) := by
  by_cases h1 : t.val % 4 = 3
  · rw [outsAt0_C m c t h0 h1]
    exact sout_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (prev m c t)
  · rw [outsAt0_B m c t h0 h1]
    exact sout_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (prev m c t)

/-- THE INVARIANT: after point `n`, entry `(p, q)` of the accumulator is the seeded maximum of the first
    `256 · (n % 4 + 1)` terms of the family at row `p` and column `j = 128 · (n / 4) + q`. -/
theorem scratch_eq (c : Dev nD) : ∀ (n : ℕ) (h : n < cfg0.N) (p q : Fin 128) (j : Fin 1024), j.val = n / 4 * 128 + q.val →
    (outsAt0 m c n h).2 (ix2 p q) = maxUpTo seed (term (X m c) (W m c) p j) ((n % 4 + 1) * 256)
  | 0, h, p, q, j, hj => by
    refine (congrFun (scratch_first m c ⟨0, h⟩ rfl) (ix2 p q)).trans ?_
    refine update_eq m c ⟨0, h⟩ (k0_pay1 (F := Ideal)) p q j hj ?_
    exact (pay1_apply p q).trans (maxUpTo_zero _ _).symm
  | n + 1, h, p, q, j, hj => by
    by_cases h0 : (n + 1) % 4 = 0
    · refine (congrFun (scratch_first m c ⟨n + 1, h⟩ h0) (ix2 p q)).trans ?_
      refine update_eq m c ⟨n + 1, h⟩ (k0_pay1 (F := Ideal)) p q j hj ?_
      refine (pay1_apply p q).trans ?_
      show seed = maxUpTo _ _ ((n + 1) % 4 * 256)
      rw [h0, Nat.zero_mul, maxUpTo_zero]
    · refine (congrFun (scratch_next m c ⟨n + 1, h⟩ h0) (ix2 p q)).trans ?_
      refine update_eq m c ⟨n + 1, h⟩ (prev m c ⟨n + 1, h⟩) p q j hj ?_
      have ih := scratch_eq c n (Nat.lt_of_succ_lt h) p q j (by omega)
      show (outsAt0 m c n _).2 (ix2 p q) = maxUpTo _ _ ((n + 1) % 4 * 256)
      rw [ih]
      congr 1
      omega

/-- So, when a point that is not a column's first begins, the accumulator holds the maximum of the first `256 · blk` terms. -/
theorem prev_eq (c : Dev nD) (t : Fin cfg0.N) (h0 : ¬t.val % 4 = 0) (p q : Fin 128) (j : Fin 1024)
    (hj : j.val = t.val / 4 * 128 + q.val) :
    prev m c t (ix2 p q) = maxUpTo seed (term (X m c) (W m c) p j) (t.val % 4 * 256) := by
  have ih := scratch_eq m c (t.val - 1) (Nat.lt_of_le_of_lt (Nat.sub_le _ _) t.isLt) p q j (by omega)
  refine ih.trans ?_
  congr 1
  omega

/-- THE RESULT BLOCK at a column's last point: the layer's entries `(p, 128 · col + q)`. -/
theorem result_apply (c : Dev nD) (t : Fin cfg0.N) (h0 : ¬t.val % 4 = 0) (h1 : t.val % 4 = 3) (p q : Fin 128) (j : Fin 1024)
    (hj : j.val = t.val / 4 * 128 + q.val) :
    out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (prev m c t) (ix2 p q)
      = layer (X m c) (W m c) (B m c) (ix2 p j) := by
  refine (congrFun (out_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (prev m c t)) (ix2 p q)).trans ?_
  refine (pay3_apply (k0_pay2 (F := Ideal) (iblk m c 0 t) (iblk m c 1 t) (prev m c t)) (iblk m c 2 t) p q).trans ?_
  rw [layer_apply]
  refine congrArg₂ (· + ·) ?_ (bias_apply m c t q j hj)
  refine (update_eq m c t (prev m c t) p q j hj (prev_eq m c t h0 p q j hj)).trans ?_
  rw [h1]
  exact maxUpTo_all _ _

/-- An index of the result array is in point `t`'s block iff each coordinate is in the block's range on its axis. -/
theorem mem_blk (t : Fin cfg0.N) (i : S128x1024.Idx) :
    i ∈ ((cfg0.win 3).blk t).view.set ↔ ∀ a : Fin 2, win0_3.index t a * S128x128.size a ≤ (i a).val ∧ (i a).val < win0_3.index t a * S128x128.size a + S128x128.size a := by
  show i ∈ ((View.whole main_v1).slice (win0_3.rect t)).set ↔ _
  rw [View.set_slice_whole, Rect.mem_set_unit]
  exact Iff.rfl

/-- WHAT A WRITE-BACK WRITES is its block of the layer of the arguments. -/
theorem flushed_eq (c : Dev nD) (t : Fin cfg0.N) (hf : (cfg0.win 3).flush t = true) :
    (dats m 0 c).flushed 3 t = ((cfg0.win 3).blk t).view.read (Elt Ideal) (layer (X m c) (W m c) (B m c)) := by
  have h1 : t.val % 4 = 3 := (flush0_3 t).mp hf
  have h0 : ¬t.val % 4 = 0 := by omega
  have hN : cfg0.N = 32 := N_0
  rw [Value.flushed3_C m c t h0 h1]
  funext y
  have hy0 : (y 0).val < 128 := (y 0).isLt
  have hy1 : (y 1).val < 128 := (y 1).isLt
  have ht := t.isLt
  have hy : y = ix2 (⟨(y 0).val, hy0⟩ : Fin 128) (⟨(y 1).val, hy1⟩ : Fin 128) :=
    funext fun a => Fin.ext (by match a with | ⟨0, _⟩ => rfl | ⟨1, _⟩ => rfl)
  have key := result_apply m c t h0 h1 ⟨(y 0).val, hy0⟩ ⟨(y 1).val, hy1⟩ ⟨t.val / 4 * 128 + (y 1).val, by omega⟩ rfl
  rw [View.read_apply]
  refine (congrArg _ hy).trans (key.trans (congrArg _ ?_))
  funext a
  apply Fin.ext
  match a with
  | ⟨0, _⟩ => show (y 0).val = win0_3.index t 0 * 128 + 1 * (y 0).val; rw [(idx_facts t).2.2.2.1]; omega
  | ⟨1, _⟩ => show t.val / 4 * 128 + (y 1).val = win0_3.index t 1 * 128 + 1 * (y 1).val; rw [(idx_facts t).2.2.2.2]; omega

/-- THE RESULT ARRAY after the run is the layer of the arguments: column `j` is written back at point `4 · (j / 128) + 3`. -/
theorem final (c : Dev nD) : (dats m 0 c).arrAt 3 cfg0.N = layer (X m c) (W m c) (B m c) :=
  (dats m 0 c).arrAt_eq_of_cover 3 (layer (X m c) (W m c) (B m c)) (fun t hf => flushed_eq m c t hf) fun i => by
    have hN : cfg0.N = 32 := N_0
    have hi0 : (i 0).val < 128 := (i 0).isLt
    have hi1 : (i 1).val < 1024 := (i 1).isLt
    refine ⟨⟨4 * ((i 1).val / 128) + 3, by omega⟩, (flush0_3 _).mpr (by show (4 * ((i 1).val / 128) + 3) % 4 = 3; omega), ?_⟩
    rw [mem_blk]
    intro a
    match a with
    | ⟨0, _⟩ =>
      show win0_3.index _ 0 * 128 ≤ (i 0).val ∧ (i 0).val < win0_3.index _ 0 * 128 + 128
      rw [(idx_facts _).2.2.2.1]; omega
    | ⟨1, _⟩ =>
      show win0_3.index _ 1 * 128 ≤ (i 1).val ∧ (i 1).val < win0_3.index _ 1 * 128 + 128
      rw [(idx_facts _).2.2.2.2]
      show (4 * ((i 1).val / 128) + 3) / 4 * 128 ≤ (i 1).val ∧ (i 1).val < (4 * ((i 1).val / 128) + 3) / 4 * 128 + 128
      omega

/-- THE RUN, READ: every weakly fair execution of the kernel's program ends with the result array at the layer of the
    arguments as launched, and the arguments unchanged. -/
theorem run : θ_run defs (onTc (τ := τ) (main (F := Ideal))) ⟨m, fun _ => 0, ρ⟩ fun r => ∀ c : Dev nD,
      r.2.mem ((c : Thread nD τ).loc main_v1) = layer (X m c) (W m c) (B m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.LayerValue

end
-- ==== Proof.RefValue.lean ====
/-
  The reference computes the layer.

  It forms the `[128, 1024, 1024]` tensor whose entry `(p, g, q)` is `x (p, g) - w (g, q)` (the input given a trailing unit
  axis and repeated along `q`, the weights a leading one and repeated along `p`), folds the middle axis away with `max`
  from minus infinity, and adds the bias repeated down the rows. Entry `(p, q)` of the result is therefore the seeded
  maximum over all 1024 inner positions `g` of `x (p, g) - w (g, q)`, plus `β q`: the function `layer`.
-/
import proofs.«139357_j11802570129553_1_alg».proof.Proof.Gen.ReferenceIdeal.Read
import proofs.«139357_j11802570129553_1_alg».proof.Proof.MaxPlus
import Idealize.ShloMosaic.PureOps.Ideal.Laws
import Idealize.ShloMosaic.Lib.ValueIdx

noncomputable section

namespace Cert.ReferenceIdeal.RefValue

open Cert.ReferenceIdeal Cert.ReferenceIdeal.Read
open Idealize.ShloMosaic Idealize.ShloMosaic.ValueIdx Cert.MaxPlus

/-- Entry `(p, g, q)` of the reference's difference tensor is `x (p, g) - w (g, q)`. -/
theorem diff_apply (x : FVec Ideal S128x1024 .f32) (w : FVec Ideal S1024x1024 .f32) (p : Fin 128) (g q : Fin 1024) :
    val_main_v4 (F := Ideal) x w (ix3 p g q) = x (ix2 p g) - w (ix2 g q) := by
  have e0 : idx_main_v0 (idx_main_v2 (ix3 p g q)) = ix2 p g :=
    funext fun a => Fin.ext (by match a with | ⟨0, _⟩ => rfl | ⟨1, _⟩ => rfl)
  have e1 : idx_main_v1 (idx_main_v3 (ix3 p g q)) = ix2 g q :=
    funext fun a => Fin.ext (by match a with | ⟨0, _⟩ => rfl | ⟨1, _⟩ => rfl)
  rw [val_main_v4_apply, val_main_v2_apply, val_main_v0_apply, val_main_v3_apply, val_main_v1_apply, e0, e1]
  rfl

/-- Over entry `(p, q)` of the result, the index of the folded axis' position `g` is `(p, g, q)`. -/
theorem lift_eq (h : S128x1024x1024.Reduces [1] S128x1024) (p : Fin 128) (q g : Fin 1024) :
    h.lift (ix2 p q) g = ix3 p g q := by
  funext c
  match c with
  | ⟨0, _⟩ => rfl
  | ⟨1, _⟩ => rfl
  | ⟨2, _⟩ => rfl

/-- The reference's maximum: entry `(p, q)` is the seeded maximum over `g` of `x (p, g) - w (g, q)`. -/
theorem max_apply (x : FVec Ideal S128x1024 .f32) (w : FVec Ideal S1024x1024 .f32) (p : Fin 128) (q : Fin 1024) :
    val_main_v5 (F := Ideal) x w (ix2 p q) = Finset.univ.fold max seed (term x w p q) := by
  have h : S128x1024x1024.Reduces [1] S128x1024 := by decide
  unfold val_main_v5
  rw [Host.reduce_eq_fold_single FloatOps.maximumf _ _ Facts₀.reducesTo_S128x1024x1024_S128x1024_d1 h Facts₀.h_S_]
  show Finset.univ.fold max seed (val_main_v4 (F := Ideal) x w ∘ h.lift (ix2 p q)) = _
  exact Finset.fold_congr fun g _ => (congrArg _ (lift_eq h p q g)).trans (diff_apply x w p g q)

/-- THE REFERENCE'S RESULT is the layer of its three arguments. -/
theorem result_eq (x : FVec Ideal S128x1024 .f32) (w : FVec Ideal S1024x1024 .f32) (β : FVec Ideal S1024 .f32) :
    val_main_v8 (F := Ideal) x w β = layer x w β := by
  funext j
  obtain ⟨p, q, rfl⟩ : ∃ (p : Fin 128) (q : Fin 1024), j = ix2 p q := ⟨j 0, j 1, eq_ix2 j⟩
  have e : idx_main_v6 (idx_main_v7 (ix2 p q)) = ix1 q :=
    funext fun a => Fin.ext (by match a with | ⟨0, _⟩ => rfl)
  rw [val_main_v8_apply, max_apply, val_main_v7_apply, val_main_v6_apply, e, layer_apply]
  rfl

end Cert.ReferenceIdeal.RefValue

end
-- ==== Proof.lean ====
/-
  A max-plus ("tropical") dense layer: for an input `x : [128, 1024]`, weights `w : [1024, 1024]` and a bias `β : [1024]`,

      out (p, j) = max_g (x (p, g) - w (g, j)) + β j.

  The kernel walks a grid of 8 column tiles × 4 inner blocks; per column tile it keeps a `[128, 128]` accumulator, set to
  minus infinity at the first block, raised at each block to the larger of itself and the block's maximum of differences,
  and written out with the bias added at the last block. The reference takes one maximum over all 1024 inner positions.

  Over the extended reals both are the same function (`MaxPlus.layer`): `max` is associative, commutative and idempotent,
  so the maximum over 1024 positions is the maximum of the four blocks' maxima, whatever the seed (`MaxPlus.maxUpTo_block`).
  No entry needs to be finite for that, so the precondition is never opened.

    * `KernelValue`: the accumulator's invariant by recursion on the grid point, the block written back at a column's
      last point, and the result array as `layer` of the arguments;
    * `RefValue`: the reference's result as `layer` of its arguments;
    * here: the three frames (the generated frame of each kernel program; the reference's generated run with the
      result dropped), `preserves` (nothing was rewritten: `True`) and `algebraic` (the two runs side by side at one term).
-/
import proofs.«139357_j11802570129553_1_alg».proof.Defs
import proofs.«139357_j11802570129553_1_alg».proof.Proof.Gen.Kernel
import proofs.«139357_j11802570129553_1_alg».proof.Proof.Gen.Kernel.Frame
import proofs.«139357_j11802570129553_1_alg».proof.Proof.Gen.KernelIdeal
import proofs.«139357_j11802570129553_1_alg».proof.Proof.Gen.KernelIdeal.Frame
import proofs.«139357_j11802570129553_1_alg».proof.Proof.Gen.KernelIdeal.Value
import proofs.«139357_j11802570129553_1_alg».proof.Proof.Gen.ReferenceIdeal
import proofs.«139357_j11802570129553_1_alg».proof.Proof.Gen.ReferenceIdeal.Run
import proofs.«139357_j11802570129553_1_alg».proof.Proof.Gen.ReferenceIdeal.Read
import proofs.«139357_j11802570129553_1_alg».proof.Proof.Gen.Pre_finite_inputs
import proofs.«139357_j11802570129553_1_alg».proof.Proof.KernelValue
import proofs.«139357_j11802570129553_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel as printed and its reading over the extended reals. -/
theorem preserves : Cert.preserves_Kernel_KernelIdeal := trivial

/-- From memories agreeing on the three arguments, the kernel's result array and the reference's result both end at
    the layer of those arguments. -/
theorem algebraic : Cert.algebraic_KernelIdeal_ReferenceIdeal := by
  intro m ρ m' ρ' _ hagree
  refine ⟨fun c => Cert.MaxPlus.layer (Cert.KernelIdeal.LayerValue.X m c) (Cert.KernelIdeal.LayerValue.W m c)
    (Cert.KernelIdeal.LayerValue.B m c), Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v8_eq (F := Ideal) _ _ _).trans ?_
  refine (Cert.ReferenceIdeal.RefValue.result_eq _ _ _).trans ?_
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
